-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S8192x8192 : Shape := ⟨2, ![8192, 8192]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 2
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  transposes_S1024x1024_p1_0_S1024x1024 : S1024x1024.Transposes [1, 0] S1024x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x8192 : Shape := ⟨2, ![1024, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S1024x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x1024_S1024x8192_1_0 : S8192x1024.Transposes [1, 0] S1024x8192
  bcast_S_S8192x8192 : S_.BroadcastsInDim S8192x8192 (![] : Fin 0 → Fin S8192x8192.rank)
  dot_S8192x1024_S1024x8192_S8192x8192_1_0_0_1_n_n_wf : DotDims.WF S8192x1024 S1024x8192 S8192x8192 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.LibSharedFrame.lean ====
/-
  The frame run of a pipelined kernel that has no semaphore of its own and whose windows may SHARE AN ARRAY.

  One array may be handed to a kernel through several input windows (the same matrix read once by row block `i` and
  once by row block `j`, say).  The buffer behind that array is then held once, at the full share, when the region is
  entered, and the proof data hold each window's array at a share of its own; how the full share is dealt among the
  windows is the one extra obligation (`hsplit`).  Everything else is as for distinct arrays: the body obligation at
  every grid point, the program's shape up to the region, and an invariant that the scoped buffers no window stages
  yield before the first point and give back after the last.  The conclusion is the usual one: after every weakly fair
  execution each window's array holds what the proof data compute for it after the last point, and every unscoped
  buffer that is no window's array holds what it held when the region was entered.
-/
import Idealize.ShloMosaic.Lib.Pipeline.Frame

noncomputable section

namespace Cert.SharedFrame

open Idealize.ShloMosaic Idealize.ShloMosaic.Pipeline Idealize.ShloMosaic.Rounds
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.TcCoe

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

include hinj hw in
/-- The frame run when windows may share an array: from the body obligation, the layout facts that do not ask the
    arrays to be distinct, the program's shape up to the region (`hmain`), the dealing of each shared buffer's full
    share among the windows on it (`hsplit`), and an invariant exchanged with the unstaged scoped buffers at the two
    ends (`hin`, `hout`), every weakly fair execution terminates in a state where each window's array is what the
    proof data compute after the last point and every other unscoped buffer is as the region found it. -/
theorem θ_run_frame_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => (show _ ⊢ (scopedRest (cfgs p).spec c : sProp 𝕄) from by iintro ⟨-, H⟩; iexact H).trans (hin c))
    (hout := fun c => (hout c).trans (by
      iintro H
      isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.SharedFrame

end
-- ==== Proof.KernelLaunched.lean ====
/-
  The launch of the pairwise-distance kernel: its frame run, with the output array named.

  The kernel is one pipelined call on an 8 × 8 grid.  At grid point (i, j) it is handed row block i of the point array
  (1024 rows) through its first window, row block j of THE SAME array through its second window, and writes the
  1024 × 1024 tile (i, j) of the output through its third.  The body loads both row blocks whole, computes one tile
  as a pure function of them, and stores the tile whole; it keeps nothing between points and uses no semaphore or
  scratch of its own.

  Because the two input windows read one array, the buffer behind it is held once and its full share is dealt in two
  halves, one per window; the output's array is held outright.  The body never needs more than the staging buffers,
  so the region invariant is empty.  The run concludes: the point array ends as it began, and the output array ends
  as its entry contents overwritten, grid point by grid point, by the tile the body computed from that point's two
  row blocks.
-/
import proofs.«169598_j32100585571004_1_alg».proof.Proof.Gen.Kernel.Launch
import proofs.«169598_j32100585571004_1_alg».proof.Proof.Gen.Kernel.Skeleton
import proofs.«169598_j32100585571004_1_alg».proof.Proof.Gen.Kernel.Points
import proofs.«169598_j32100585571004_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: as launched (the program is the region alone). -/
abbrev V (c : Dev nD) (b : Ref sig .tc) : Buf (Elt F) ((c : Thread nD τ).loc b) := m ((c : Thread nD τ).loc b)

/-- The program is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at grid point `t`, read off its array as the region finds it: row block i or j of the point
    array for the two input windows. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first window's staging buffer holds row block i at every point, fetched there or not (between fetches the
    block index does not move), for any proof data over the entry arrays whose body leaves the block in place. -/
theorem before_rows_i_of {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The second window's staging buffer holds row block j at every point, likewise. -/
theorem before_rows_j_of {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output window's buffer -/

/-- The whole 1024 × 1024 staging buffer as one rectangle: the body's loads and its one store all go through it. -/
abbrev whole : Rect S1024x1024 := Rect.unit (s := S1024x1024) ![0, 0] S1024x1024.size inb_S1024x1024_S1024x1024_0_0

/-- The output buffer after the body, from the two row blocks: its one store, of the tile computed from the loads. -/
def tile (x0 : Vec F S1024x1024 .f32) (x1 : Vec F S1024x1024 .f32) : Vec F S1024x1024 .f32 :=
  View.canon [⟨whole, k0_pay1 (View.ld x0 whole) (View.ld x1 whole)⟩]

/-- The one store covers the buffer. -/
theorem tile_covers (p0 : Vec F S1024x1024 .f32) (y : S1024x1024.Idx) :
    ∃ pc ∈ ([⟨whole, p0⟩] : List (View.Piece (Elt F) S1024x1024 .f32)), y ∈ pc.1.set :=
  View.cover_of_tiled [⟨whole, p0⟩] S1024x1024.size (by rfl) y

/-! ## The body's triple -/

set_option maxHeartbeats 1000000 in
/-- The body on whole staging memrefs, the inputs' at read contents `x0`, `x1` and the output's at anything, runs to
    the continuation holding the inputs' as they were and the output's at `tile x0 x1`. -/
theorem sound_kernel (c : Dev nD) (E : Set ℕ) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole)
    (x0 : Vec F S1024x1024 .f32) (x1 : Vec F S1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__rbf_kernel i arg2 harg2 arg3 harg3 arg4 harg4) K := by
  simp only [cc0__rbf_kernel_eq_skeleton]; unfold cc0__rbf_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers _)

/-! ## The proof data -/

/-- The proof data of the one pipeline on core `c`: the arrays as the region finds them; after the body at point `t`
    each input's buffer at its row block and the output's at the tile of the two row blocks; an empty invariant;
    nothing owed; the point array's full share dealt in halves to the two windows that read it. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => tile (blockAt m c 0 t) (blockAt m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows_i (c : Dev nD) (t : Fin cfg0.N) : (dats m 0 c).after 0 t = blockAt m c 0 t := by dsimp only [dats]
theorem after_rows_j (c : Dev nD) (t : Fin cfg0.N) : (dats m 0 c).after 1 t = blockAt m c 1 t := by dsimp only [dats]
theorem after_tile (c : Dev nD) (t : Fin cfg0.N) : (dats m 0 c).after 2 t = tile (blockAt m c 0 t) (blockAt m c 1 t) := by dsimp only [dats]

theorem before_rows_i (c : Dev nD) (t : Fin cfg0.N) (d) : (dats m 0 c).before 0 t d = blockAt m c 0 t :=
  before_rows_i_of m (dats m 0 c) (A_eq m c 0) (after_rows_i m c) t d
theorem before_rows_j (c : Dev nD) (t : Fin cfg0.N) (d) : (dats m 0 c).before 1 t d = blockAt m c 1 t :=
  before_rows_j_of m (dats m 0 c) (A_eq m c 1) (after_rows_j m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their row blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows_i, before_rows_j]
  rw [show (dats m 0 c).Φ t.succ = (dats m 0 c).Φ t.castSucc from rfl,
    show (dats m 0 c).owesAt () t.succ = (dats m 0 c).owesAt () t.castSucc from rfl,
    after_rows_i, after_rows_j, after_tile]
  iintro ⟨HΦ, Ho, ⟨%d0, H0⟩, ⟨%d1, H1⟩, ⟨%d2, H2⟩⟩
  iapply (sound_kernel c Set.univ _ _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## Dealing the shared array's share -/

/-- The buffers behind the windows' arrays are two: the point array and the output array. -/
theorem arrRefs_eq : Finset.univ.image (Pipeline.arrRef spec0) = {main_arg0, main_v0} := by decide

/-- The point array held once at the full share is the two input windows' halves; the output array is the third
    window's outright: the proof data's arrays at entry. -/
theorem arrays_dealt (c : Dev nD) :
    (Pipeline.arrBufs spec0 c (V m c) : sProp 𝕄) ⊢ (dats m 0 c).arrays ((dats m 0 c).arrAt · 0) := by
  unfold Pipeline.arrBufs Dat.arrays
  rw [arrRefs_eq, bigSep_insert (by decide), bigSep_singleton, bigSep_W0]
  show iprop((((c : Thread nD τ).loc main_arg0) ↦{fullShare} V m c main_arg0) ∗ (((c : Thread nD τ).loc main_v0) ↦{fullShare} V m c main_v0)) ⊢ _
  iintro ⟨HX, HO⟩
  ihave HXs := (pointsTo_share (PosShare.mem_left_op_right fullShare)).1 $$ HX
  icases HXs with ⟨HL, HR⟩
  isplitl [HL]
  · rw [(arr_whole0 0).set_eq_univ]; iexact HL
  isplitl [HR]
  · rw [(arr_whole0 1).set_eq_univ]; iexact HR
  · rw [(arr_whole0 2).set_eq_univ]; iexact HO

/-! ## The run -/

set_option backward.isDefEq.respectTransparency.types false in
/-- At the compiled mesh, from any memory with zero counters: every weakly fair execution of the program terminates,
    and in every final state each window's array is what the proof data compute after the last point. -/
theorem run_main : θ_run defs (onTc (τ := τ) (main (F := F))) (s₀ m ρ) (Pipeline.FramePost cfgs (dats m) 0 (V m)) :=
  Cert.SharedFrame.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := arrays_dealt m)
    (hin := fun c => by rw [scopedRest0_eq]; exact .rfl) (hout := fun c => by rw [scopedRest0_eq]; exact .rfl)

/-- The point array ends as it began: it is an input window's array, and an input's array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

end Cert.Kernel.Launched

end
-- ==== Proof.KernelIdealLaunched.lean ====
/-
  The launch of the pairwise-distance kernel: its frame run, with the output array named.

  The kernel is one pipelined call on an 8 × 8 grid.  At grid point (i, j) it is handed row block i of the point array
  (1024 rows) through its first window, row block j of THE SAME array through its second window, and writes the
  1024 × 1024 tile (i, j) of the output through its third.  The body loads both row blocks whole, computes one tile
  as a pure function of them, and stores the tile whole; it keeps nothing between points and uses no semaphore or
  scratch of its own.

  Because the two input windows read one array, the buffer behind it is held once and its full share is dealt in two
  halves, one per window; the output's array is held outright.  The body never needs more than the staging buffers,
  so the region invariant is empty.  The run concludes: the point array ends as it began, and the output array ends
  as its entry contents overwritten, grid point by grid point, by the tile the body computed from that point's two
  row blocks.
-/
import proofs.«169598_j32100585571004_1_alg».proof.Proof.Gen.KernelIdeal.Launch
import proofs.«169598_j32100585571004_1_alg».proof.Proof.Gen.KernelIdeal.Skeleton
import proofs.«169598_j32100585571004_1_alg».proof.Proof.Gen.KernelIdeal.Points
import proofs.«169598_j32100585571004_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: as launched (the program is the region alone). -/
abbrev V (c : Dev nD) (b : Ref sig .tc) : Buf (Elt F) ((c : Thread nD τ).loc b) := m ((c : Thread nD τ).loc b)

/-- The program is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at grid point `t`, read off its array as the region finds it: row block i or j of the point
    array for the two input windows. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first window's staging buffer holds row block i at every point, fetched there or not (between fetches the
    block index does not move), for any proof data over the entry arrays whose body leaves the block in place. -/
theorem before_rows_i_of {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The second window's staging buffer holds row block j at every point, likewise. -/
theorem before_rows_j_of {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output window's buffer -/

/-- The whole 1024 × 1024 staging buffer as one rectangle: the body's loads and its one store all go through it. -/
abbrev whole : Rect S1024x1024 := Rect.unit (s := S1024x1024) ![0, 0] S1024x1024.size inb_S1024x1024_S1024x1024_0_0

/-- The output buffer after the body, from the two row blocks: its one store, of the tile computed from the loads. -/
def tile (x0 : Vec F S1024x1024 .f32) (x1 : Vec F S1024x1024 .f32) : Vec F S1024x1024 .f32 :=
  View.canon [⟨whole, k0_pay1 (View.ld x0 whole) (View.ld x1 whole)⟩]

/-- The one store covers the buffer. -/
theorem tile_covers (p0 : Vec F S1024x1024 .f32) (y : S1024x1024.Idx) :
    ∃ pc ∈ ([⟨whole, p0⟩] : List (View.Piece (Elt F) S1024x1024 .f32)), y ∈ pc.1.set :=
  View.cover_of_tiled [⟨whole, p0⟩] S1024x1024.size (by rfl) y

/-! ## The body's triple -/

set_option maxHeartbeats 1000000 in
/-- The body on whole staging memrefs, the inputs' at read contents `x0`, `x1` and the output's at anything, runs to
    the continuation holding the inputs' as they were and the output's at `tile x0 x1`. -/
theorem sound_kernel (c : Dev nD) (E : Set ℕ) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole)
    (x0 : Vec F S1024x1024 .f32) (x1 : Vec F S1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__rbf_kernel i arg2 harg2 arg3 harg3 arg4 harg4) K := by
  simp only [cc0__rbf_kernel_eq_skeleton]; unfold cc0__rbf_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers _)

/-! ## The proof data -/

/-- The proof data of the one pipeline on core `c`: the arrays as the region finds them; after the body at point `t`
    each input's buffer at its row block and the output's at the tile of the two row blocks; an empty invariant;
    nothing owed; the point array's full share dealt in halves to the two windows that read it. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => tile (blockAt m c 0 t) (blockAt m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows_i (c : Dev nD) (t : Fin cfg0.N) : (dats m 0 c).after 0 t = blockAt m c 0 t := by dsimp only [dats]
theorem after_rows_j (c : Dev nD) (t : Fin cfg0.N) : (dats m 0 c).after 1 t = blockAt m c 1 t := by dsimp only [dats]
theorem after_tile (c : Dev nD) (t : Fin cfg0.N) : (dats m 0 c).after 2 t = tile (blockAt m c 0 t) (blockAt m c 1 t) := by dsimp only [dats]

theorem before_rows_i (c : Dev nD) (t : Fin cfg0.N) (d) : (dats m 0 c).before 0 t d = blockAt m c 0 t :=
  before_rows_i_of m (dats m 0 c) (A_eq m c 0) (after_rows_i m c) t d
theorem before_rows_j (c : Dev nD) (t : Fin cfg0.N) (d) : (dats m 0 c).before 1 t d = blockAt m c 1 t :=
  before_rows_j_of m (dats m 0 c) (A_eq m c 1) (after_rows_j m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their row blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows_i, before_rows_j]
  rw [show (dats m 0 c).Φ t.succ = (dats m 0 c).Φ t.castSucc from rfl,
    show (dats m 0 c).owesAt () t.succ = (dats m 0 c).owesAt () t.castSucc from rfl,
    after_rows_i, after_rows_j, after_tile]
  iintro ⟨HΦ, Ho, ⟨%d0, H0⟩, ⟨%d1, H1⟩, ⟨%d2, H2⟩⟩
  iapply (sound_kernel c Set.univ _ _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## Dealing the shared array's share -/

/-- The buffers behind the windows' arrays are two: the point array and the output array. -/
theorem arrRefs_eq : Finset.univ.image (Pipeline.arrRef spec0) = {main_arg0, main_v0} := by decide

/-- The point array held once at the full share is the two input windows' halves; the output array is the third
    window's outright: the proof data's arrays at entry. -/
theorem arrays_dealt (c : Dev nD) :
    (Pipeline.arrBufs spec0 c (V m c) : sProp 𝕄) ⊢ (dats m 0 c).arrays ((dats m 0 c).arrAt · 0) := by
  unfold Pipeline.arrBufs Dat.arrays
  rw [arrRefs_eq, bigSep_insert (by decide), bigSep_singleton, bigSep_W0]
  show iprop((((c : Thread nD τ).loc main_arg0) ↦{fullShare} V m c main_arg0) ∗ (((c : Thread nD τ).loc main_v0) ↦{fullShare} V m c main_v0)) ⊢ _
  iintro ⟨HX, HO⟩
  ihave HXs := (pointsTo_share (PosShare.mem_left_op_right fullShare)).1 $$ HX
  icases HXs with ⟨HL, HR⟩
  isplitl [HL]
  · rw [(arr_whole0 0).set_eq_univ]; iexact HL
  isplitl [HR]
  · rw [(arr_whole0 1).set_eq_univ]; iexact HR
  · rw [(arr_whole0 2).set_eq_univ]; iexact HO

/-! ## The run -/

set_option backward.isDefEq.respectTransparency.types false in
/-- At the compiled mesh, from any memory with zero counters: every weakly fair execution of the program terminates,
    and in every final state each window's array is what the proof data compute after the last point. -/
theorem run_main : θ_run defs (onTc (τ := τ) (main (F := F))) (s₀ m ρ) (Pipeline.FramePost cfgs (dats m) 0 (V m)) :=
  Cert.SharedFrame.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := arrays_dealt m)
    (hin := fun c => by rw [scopedRest0_eq]; exact .rfl) (hout := fun c => by rw [scopedRest0_eq]; exact .rfl)

/-- The point array ends as it began: it is an input window's array, and an input's array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

end Cert.KernelIdeal.Launched

end
-- ==== Proof.RbfSpec.lean ====
/-
  The Gaussian-type kernel matrix of a point cloud, as ONE function of the array of points.

  For rows `a`, `b` of the point array the entry is `exp (-(dist a b) / T)`, the distance taken through the
  expansion `‖a - b‖² = ‖a‖² + ‖b‖² - 2⟨a, b⟩`, clamped below at zero before the square root.  The scale `2` and the
  temperature `T` are kept as the binary words both programs spell, so neither is ever evaluated.  The matrix is the
  entry function applied to every pair of rows.
-/
import Idealize.ShloMosaic.PureOps.Ideal
import Idealize.ShloMosaic.Lib.ValueIdx

noncomputable section

open scoped BigOperators

namespace Cert.Rbf

open Idealize.ShloMosaic Idealize.ShloMosaic.ValueIdx

/-- The squared length of a row, as a plain sum over its 1024 coordinates. -/
def sqNorm (a : Fin 1024 → EReal) : EReal := ∑ k : Fin 1024, a k * a k

/-- The inner product of two rows, as a plain sum over their 1024 coordinates. -/
def inner (a b : Fin 1024 → EReal) : EReal := ∑ k : Fin 1024, a k * b k

/-- One entry of the kernel matrix from the two rows it depends on:
    `exp (-(√(max (‖a‖² + ‖b‖² - 2⟨a, b⟩) 0)) / T)`, with `2 = 0x40000000` and `T = 0x3C23D70A` as f32 words. -/
def entry (a b : Fin 1024 → EReal) : EReal :=
  Ideal.exp (Ideal.div (-(Ideal.sqrt (max ((sqNorm a + sqNorm b) - Ideal.ofBits .f32 0x40000000#32 * inner a b) 0)))
    (Ideal.ofBits .f32 0x3C23D70A#32))

/-- The kernel matrix of the 8192 points `X`: entry `(i, j)` depends on rows `i` and `j` of `X` only. -/
def kernelMatrix (X : (⟨2, ![8192, 1024]⟩ : Shape).Idx → EReal) : (⟨2, ![8192, 8192]⟩ : Shape).Idx → EReal :=
  fun i => entry (fun k => X (ix2 (i 0 : Fin 8192) k)) (fun k => X (ix2 (i 1 : Fin 8192) k))

end Cert.Rbf

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.PayloadIsSpec.lean ====
/-
  The kernel body's arithmetic, read at one element, is the specification's entry.

  From two 1024 × 1024 blocks v0 (rows i of the points) and v1 (rows j) the body computes, at (p, q),
      exp ((0 - sqrt (max ((s0 p + s1 q) - 2 * g p q) 0)) / T).
  Here s0 p = ∑ k, v0 (p, k) * v0 (p, k) is the sum of squares of row p of v0, taken from the zero word, kept as a
  column and spread over the columns; s1 q is the same for row q of v1, its column laid as a row and spread over the
  rows; and g p q = ∑ k, v0 (p, k) * (v1ᵀ) (k, q) = ∑ k, v0 (p, k) * v1 (q, k) is the block product with the transpose,
  accumulated into zero.  With the zero word read as 0 and 0 - x = -x on the extended reals, this is the entry of the
  kernel matrix for row p of v0 and row q of v1.
-/
import proofs.«169598_j32100585571004_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«169598_j32100585571004_1_alg».proof.Proof.RbfSpec
import proofs.«169598_j32100585571004_1_alg».proof.Proof.LibRowReduce
import proofs.«169598_j32100585571004_1_alg».proof.Proof.LibPlainDot

noncomputable section

open scoped BigOperators

namespace Cert.Rbf.Pay

open Cert.KernelIdeal Cert.KernelIdeal.Gen Idealize.ShloMosaic Idealize.ShloMosaic.ValueIdx Idealize.SL.Sem

/-- A [1024, 1] column spread over 1024 columns reads, at (p, q), the column at row p. -/
theorem col_spread_apply (c : FVec Ideal S1024x1 .f32) (p q : Fin 1024) :
    broadcastTo S1024x1024 c broadcasts_S1024x1_S1024x1024 (ix2 p q) = c (ix2 p (0 : Fin 1)) := by
  refine broadcastTo_apply c broadcasts_S1024x1_S1024x1024 (ix2 p q) (ix2 p (0 : Fin 1)) fun ax => ?_
  match ax with
  | ⟨0, _⟩ => show p.val = if (1024 : Nat) = 1 then 0 else p.val; rw [if_neg (by decide)]
  | ⟨1, _⟩ => show 0 = if (1 : Nat) = 1 then 0 else q.val; rw [if_pos rfl]

/-- The same column laid as a [1, 1024] row and spread over 1024 rows reads, at (p, q), the column at row q. -/
theorem row_spread_apply (c : FVec Ideal S1024x1 .f32) (p q : Fin 1024) :
    broadcastTo S1024x1024 (transpose S1x1024 [1, 0] c transposes_S1024x1_p1_0_S1x1024) broadcasts_S1x1024_S1024x1024 (ix2 p q)
      = c (ix2 q (0 : Fin 1)) := by
  refine (broadcastTo_1b_ab_apply _ broadcasts_S1x1024_S1024x1024 p q).trans ?_
  exact transpose_ix2_apply c transposes_S1024x1_p1_0_S1x1024 (0 : Fin 1) q

/-- The row sums of squares of a [1024, 1024] block, summed from the zero word and kept as a [1024, 1] column: at
    (p, u) the column is the squared length of row p. -/
theorem sq_col_apply (v : FVec Ideal S1024x1024 .f32) (p : Fin 1024) (u : Fin 1) :
    shapeCast S1024x1 (multiReduction (F := Ideal) .add [1] S1024 (mulf v v) 0x00000000#32 reduces_S1024x1024_S1024 (.inl rfl) rfl)
        shapeCasts_S1024_S1024x1 (ix2 p u)
      = Cert.Rbf.sqNorm (fun k => v (ix2 p k)) := by
  refine (RowReduce.shapeCast_a_a1_apply _ shapeCasts_S1024_S1024x1 p u).trans ?_
  exact RowReduce.multiReduction_add_row (mulf v v) _ reduces_S1024x1024_S1024 (.inl rfl) rfl p

/-- The block product of v0 with the transpose of v1, into the zero accumulator: at (p, q) it is the inner product of
    row p of v0 with row q of v1. -/
theorem gram_apply (v0 v1 : FVec Ideal S1024x1024 .f32) (p q : Fin 1024) :
    matmul dot_S1024x1024_S1024x1024_S1024x1024_1_0_0_1_n_n (some .fp32) v0
        (transpose S1024x1024 [1, 0] v1 transposes_S1024x1024_p1_0_S1024x1024) (constant (F := Ideal) S1024x1024 .f32 0x00000000#32) (ix2 p q)
      = Cert.Rbf.inner (fun k => v0 (ix2 p k)) (fun k => v1 (ix2 q k)) := by
  refine (PlainDot.matmul_zero_apply dot_S1024x1024_S1024x1024_S1024x1024_1_0_0_1_n_n rfl (some .fp32) v0
    (transpose S1024x1024 [1, 0] v1 transposes_S1024x1024_p1_0_S1024x1024) p q).trans ?_
  exact Finset.sum_congr rfl fun k _ =>
    congrArg (v0 (ix2 p k) * ·) (transpose_ix2_apply v1 transposes_S1024x1024_p1_0_S1024x1024 k q)

/-- An exponential read at an index is the exponential of the element. -/
theorem exp_apply {s : Shape} {φ : FTy} (a : FVec Ideal s φ) (i : s.Idx) : exp a i = Ideal.exp (a i) := rfl
/-- A square root read at an index is the square root of the element. -/
theorem sqrt_apply {s : Shape} {φ : FTy} (a : FVec Ideal s φ) (i : s.Idx) : sqrt a i = Ideal.sqrt (a i) := rfl
/-- A scalar constant is the extended real its word encodes. -/
theorem scalar_word {φ : FTy} (b : BitVec φ.bits) : Scalar.ofBits (F := Ideal) φ b = Ideal.ofBits φ b := rfl

/-- The kernel body's value at (p, q) is the specification's entry of row p of the first block and row q of the second. -/
theorem pay_eq (x0 x1 : Vec Ideal S1024x1024 .f32) (p q : Fin 1024) :
    k0_pay1 (F := Ideal) x0 x1 (ix2 p q) = Cert.Rbf.entry (fun k => x0 (ix2 p k)) (fun k => x1 (ix2 q k)) := by
  unfold k0_pay1
  -- the pointwise operations read through at the index; what is left are the two spread columns and the product
  simp only [exp_apply, divf_apply, subf_apply, sqrt_apply, maximumf_apply, addf_apply, mulf_apply, broadcast_apply,
    scalar_word]
  rw [col_spread_apply, sq_col_apply, row_spread_apply, sq_col_apply, gram_apply, Ideal.ofBits_zero_f32, zero_sub]
  rfl

end Cert.Rbf.Pay

end
-- ==== Proof.KernelIdealWhole.lean ====
/-
  From tiles to the whole output array: the kernel's output is the kernel matrix of the point array.

  At grid point (i, j) the body's tile is, entry (p, q), the specification's entry of row p of row block i and row q
  of row block j.  Row p of row block i is row 1024·i + p of the point array, and the tile is written back at rows
  1024·i … and columns 1024·j … of the output, so every written-back tile is the matching tile of ONE function of the
  point array, the kernel matrix.  The 8 × 8 tiles cover the 8192 × 8192 output (the tile covering entry (r, s) is
  (r / 1024, s / 1024)), so after the run the output array is the kernel matrix.
-/
import proofs.«169598_j32100585571004_1_alg».proof.Proof.KernelIdealLaunched
import proofs.«169598_j32100585571004_1_alg».proof.Proof.PayloadIsSpec
import proofs.«169598_j32100585571004_1_alg».proof.Proof.RbfSpec
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Launched
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem origin_zero : (![0, 0] : Fin 2 → Nat) = fun _ => 0 := funext fun a => by fin_cases a <;> rfl

/-- One tile entry: if `x0` is row block `bi` and `x1` row block `bj` of the point array `X`, the body's value at
    (p, q) is the kernel matrix of `X` at (1024·bi + p, 1024·bj + q). -/
theorem tile_entry (X : S8192x1024.Idx → EReal) (x0 x1 : Vec Ideal S1024x1024 .f32) (bi bj : Nat)
    (h0 : ∀ (y : S1024x1024.Idx) (z : S8192x1024.Idx), (z 0).val = bi * 1024 + (y 0).val → (z 1).val = (y 1).val → x0 y = X z)
    (h1 : ∀ (y : S1024x1024.Idx) (z : S8192x1024.Idx), (z 0).val = bj * 1024 + (y 0).val → (z 1).val = (y 1).val → x1 y = X z)
    (j : S1024x1024.Idx) (i : S8192x8192.Idx) (hi0 : (i 0).val = bi * 1024 + (j 0).val) (hi1 : (i 1).val = bj * 1024 + (j 1).val) :
    k0_pay1 (F := Ideal) x0 x1 j = Cert.Rbf.kernelMatrix X i := by
  obtain ⟨p, q, rfl⟩ : ∃ (p q : Fin 1024), j = ix2 p q := ⟨j 0, j 1, eq_ix2 j⟩
  obtain ⟨P, Q, rfl⟩ : ∃ (P Q : Fin 8192), i = ix2 P Q := ⟨i 0, i 1, eq_ix2 i⟩
  rw [Cert.Rbf.Pay.pay_eq]
  unfold Cert.Rbf.kernelMatrix
  congr 1 <;> funext k
  · exact h0 (ix2 p k) (ix2 P k) hi0 rfl
  · exact h1 (ix2 q k) (ix2 Q k) hi1 rfl

/-- The printed index maps over the grid: the first window's row block is the output tile's row index, the second
    window's row block is the output tile's column index, neither input window moves along its columns, and the
    tile indices stay below 8. -/
theorem index_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every tile of the 8 × 8 tiling is some grid point's. -/
theorem index_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- What grid point `t` writes back is tile `t` of the kernel matrix of the point array as the region finds it. -/
theorem flushed_eq (c : Dev nD) (t : Fin cfg0.N) :
    (dats m 0 c).flushed 2 t = ((cfg0.win 2).blk t).view.read (Elt Ideal) (Cert.Rbf.kernelMatrix (V m c main_arg0)) := by
  show (cfg0.win 2).cut (grid0.coords t) ((dats m 0 c).after 2 t) = _
  rw [after_tile]
  unfold tile
  rw [View.canon_unit_zero origin_zero]
  simp only [View.ld_unit_zero (S := S1024x1024) origin_zero]
  obtain ⟨e0, e1, e2, e3, e4, e5⟩ := index_facts t
  funext j
  show k0_pay1 (F := Ideal) (blockAt m c 0 t) (blockAt m c 1 t) j = Cert.Rbf.kernelMatrix (V m c main_arg0) (((cfg0.win 2).blk t).view.emb j)
  refine tile_entry (V m c main_arg0) (blockAt m c 0 t) (blockAt m c 1 t) (win0_2.index t (0 : Fin 2)) (win0_2.index t (1 : Fin 2)) ?_ ?_ j _ ?_ ?_
  · intro y z hz0 hz1
    show V m c main_arg0 (((cfg0.win 0).blk t).view.emb y) = V m c main_arg0 z
    refine congrArg _ (funext fun a => Fin.ext ?_)
    match a with
    | ⟨0, _⟩ => show win0_0.index t (0 : Fin 2) * 1024 + 1 * (y 0).val = (z 0).val; omega
    | ⟨1, _⟩ => show win0_0.index t (1 : Fin 2) * 1024 + 1 * (y 1).val = (z 1).val; omega
  · intro y z hz0 hz1
    show V m c main_arg0 (((cfg0.win 1).blk t).view.emb y) = V m c main_arg0 z
    refine congrArg _ (funext fun a => Fin.ext ?_)
    match a with
    | ⟨0, _⟩ => show win0_1.index t (0 : Fin 2) * 1024 + 1 * (y 0).val = (z 0).val; omega
    | ⟨1, _⟩ => show win0_1.index t (1 : Fin 2) * 1024 + 1 * (y 1).val = (z 1).val; omega
  · show win0_2.index t (0 : Fin 2) * 1024 + 1 * (j 0).val = win0_2.index t (0 : Fin 2) * 1024 + (j 0).val; omega
  · show win0_2.index t (1 : Fin 2) * 1024 + 1 * (j 1).val = win0_2.index t (1 : Fin 2) * 1024 + (j 1).val; omega

/-- An index of the output is in grid point `t`'s tile iff each coordinate is in the tile's range on its axis. -/
theorem mem_tile (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every entry of the output lies in some written-back tile: entry (r, s) in tile (r / 1024, s / 1024). -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := index_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The output array after the run is the kernel matrix of the point array. -/
theorem final (c : Dev nD) : (dats m 0 c).arrAt 2 cfg0.N = Cert.Rbf.kernelMatrix (V m c main_arg0) :=
  (dats m 0 c).arrAt_eq_of_cover 2 _ (fun t _ => flushed_eq m c t) covered

/-- The run, read: every weakly fair execution ends with the output array at the kernel matrix of the launch contents
    of the point array, and the point array unchanged. -/
theorem run : θ_run defs (onTc (τ := τ) (main (F := Ideal))) ⟨m, fun _ => 0, ρ⟩ fun r => ∀ c : Dev nD,
      r.2.mem ((c.tc : Thread nD τ).loc main_v0) = Cert.Rbf.kernelMatrix (m ((c.tc : Thread nD τ).loc main_arg0))
      ∧ r.2.mem ((c.tc : Thread nD τ).loc main_arg0) = m ((c.tc : Thread nD τ).loc main_arg0) :=
  (θ_run defs _ _).mono (fun r h c => ⟨((h c).1 2).trans (final m c),
      ((h c).1 0).trans (((dats m 0 c).arrAt_in 0 rfl _).trans (A_eq m c 0))⟩)
    (run_main m ρ)

end Cert.KernelIdeal.Whole

end
-- ==== Proof.RefIsSpec.lean ====
/-
  The reference program computes the kernel matrix of the specification.

  Read at an output index (p, q), the reference is
      exp ((-(sqrt (max ((s p + s q) - 2 * g p q) 0))) / T),
  where s r = 0 + ∑ k, X (r, k) * X (r, k) is the row sum of squares taken from the zero word, and
  g p q = ∑ k, X (p, k) * (Xᵀ) (k, q) = ∑ k, X (p, k) * X (q, k) is the product of X with its transpose.  The two
  keep-dimension broadcasts of s read it at row p and at row q; the scalar constants read their words everywhere.
  With 0 + s = s on the extended reals this is, term for term, the specification's entry of rows p and q of X.
-/
import proofs.«169598_j32100585571004_1_alg».proof.Proof.Gen.ReferenceIdeal.Read
import proofs.«169598_j32100585571004_1_alg».proof.Proof.RbfSpec

noncomputable section

open scoped BigOperators

namespace Cert.Rbf.Ref

open Cert.ReferenceIdeal Cert.ReferenceIdeal.Read Idealize.ShloMosaic Idealize.ShloMosaic.ValueIdx Idealize.SL.Sem

/-- The reference's last stage, as a function of the point array, is the kernel matrix of the points. -/
theorem ref_eq (X : (⟨S8192x1024, .f32⟩ : BufTy).Contents (Elt Ideal)) :
    val_main_v18 (F := Ideal) X = Cert.Rbf.kernelMatrix X := by
  funext i
  obtain ⟨p, q, rfl⟩ : ∃ (p q : Fin 8192), i = ix2 p q := ⟨i 0, i 1, eq_ix2 i⟩
  -- the column of row sums is read at row p, the row of row sums at row q
  have eP : ∀ k : Fin 1024, idx_main_v1 (idx_main_v2 (idx_main_v4 (ix2 p q))) k = ix2 p k := fun k =>
    funext fun a => Fin.ext (by match a with | ⟨0, _⟩ => rfl | ⟨1, _⟩ => rfl)
  have eQ : ∀ k : Fin 1024, idx_main_v1 (idx_main_v3 (idx_main_v5 (ix2 p q))) k = ix2 q k := fun k =>
    funext fun a => Fin.ext (by match a with | ⟨0, _⟩ => rfl | ⟨1, _⟩ => rfl)
  -- the product's left factor is X at (p, k), its right factor the transpose at (k, q), that is X at (q, k)
  have eL : ∀ k : Fin 1024, lidx_main_v8 (ix2 p q) k = ix2 p k := fun k =>
    funext fun a => Fin.ext (by match a with | ⟨0, _⟩ => rfl | ⟨1, _⟩ => rfl)
  have eR : ∀ k : Fin 1024, idx_main_v7 (ridx_main_v8 (ix2 p q) k) = ix2 q k := fun k =>
    funext fun a => Fin.ext (by match a with | ⟨0, _⟩ => rfl | ⟨1, _⟩ => rfl)
  rw [val_main_v18_apply, val_main_v17_apply, val_main_v16_apply, val_main_cst_2_apply, val_main_v15_apply,
    val_main_v14_apply, val_main_v13_apply, val_main_v12_apply, val_main_cst_1_apply, val_main_v11_apply,
    val_main_v10_apply, val_main_v9_apply, val_main_cst_0_apply, val_main_v8_apply, val_main_v6_apply,
    val_main_v4_apply, val_main_v2_apply, val_main_v5_apply, val_main_v3_apply, val_main_v1_apply, val_main_v1_apply,
    val_main_cst_apply]
  simp only [val_main_v7_apply, val_main_v0_apply, eP, eQ, eL, eR, Ideal.hostUnary_exp_def, Ideal.hostDivf_def,
    Ideal.hostNegf_def, Ideal.negf_def, Ideal.hostUnary_sqrt_def, Ideal.maximumf_def, Ideal.subf_def, Ideal.addf_def,
    Ideal.mulf_def, Ideal.ofBits_def, Ideal.ofBits_zero_f32, zero_add]
  rfl

end Cert.Rbf.Ref

end
-- ==== Proof.lean ====
/-
  The pairwise-distance kernel against its reference: both compute, entry (r, s), exp (-(dist r s) / T) of rows r and s
  of the point array, the distance through ‖a‖² + ‖b‖² - 2⟨a, b⟩ clamped at zero.

  The kernel tiles the 8192 × 8192 output 8 × 8 and computes tile (i, j) from row blocks i and j of the one point
  array, which it reads through two windows; the reference computes the whole matrix at once.  At the ideal values
  (extended reals, exact operations) the row sums of squares and the product with the transpose are plain finite sums
  on both sides, `0 - x` is `-x`, and every written-back tile is the matching tile of one function of the point
  array, so the two results are equal entry by entry.  No law used needs the inputs to be finite.

  The three programs run to the end, fault nowhere and leave the point array unchanged: the kernel (at the word level
  and at the ideal values) by its launch with the shared array's share dealt between the two windows that read it,
  the reference by its run read back.  The idealized kernel is the kernel's own text read at the ideal values.
-/
import proofs.«169598_j32100585571004_1_alg».proof.Defs
import proofs.«169598_j32100585571004_1_alg».proof.Proof.Gen.Kernel
import proofs.«169598_j32100585571004_1_alg».proof.Proof.Gen.KernelIdeal
import proofs.«169598_j32100585571004_1_alg».proof.Proof.Gen.ReferenceIdeal
import proofs.«169598_j32100585571004_1_alg».proof.Proof.Gen.Pre_finite_inputs
import proofs.«169598_j32100585571004_1_alg».proof.Proof.Gen.ReferenceIdeal.Run
import proofs.«169598_j32100585571004_1_alg».proof.Proof.Gen.ReferenceIdeal.Read
import proofs.«169598_j32100585571004_1_alg».proof.Proof.KernelLaunched
import proofs.«169598_j32100585571004_1_alg».proof.Proof.KernelIdealLaunched
import proofs.«169598_j32100585571004_1_alg».proof.Proof.KernelIdealWhole
import proofs.«169598_j32100585571004_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves the point array unchanged. -/
theorem frame_kernel : Cert.frame_Kernel := fun m ρ _ => Cert.Kernel.Launched.frame (F := Bits) m ρ

/-- The idealized kernel runs and leaves the point array unchanged. -/
theorem frame_kernel_ideal : Cert.frame_KernelIdeal := fun m ρ _ => Cert.KernelIdeal.Launched.frame (F := Ideal) m ρ

/-- The reference runs and leaves the point array unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the point array both programs end with the kernel matrix of that array. -/
theorem algebraic : Cert.algebraic_KernelIdeal_ReferenceIdeal := by
  intro m ρ m' ρ' _ hagree
  refine ⟨fun c => Cert.Rbf.kernelMatrix (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Rbf.Ref.ref_eq, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
